-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1024 : Shape := ⟨2, ![65536, 1024]⟩
abbrev S256x1024 : Shape := ⟨2, ![256, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S65536x1024 .f32) (main_arg1 : FVec F S256x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S65536x1024 : Shape := ⟨2, ![65536, 1024]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S1x256 : Shape := ⟨2, ![1, 256]⟩
abbrev S65536x256 : Shape := ⟨2, ![65536, 256]⟩
abbrev S32x1x256 : Shape := ⟨3, ![32, 1, 256]⟩
abbrev S2048x1024 : Shape := ⟨2, ![2048, 1024]⟩
abbrev S2048x256 : Shape := ⟨2, ![2048, 256]⟩
abbrev S1x1x256 : Shape := ⟨3, ![1, 1, 256]⟩
abbrev S2048 : Shape := ⟨1, ![2048]⟩
abbrev S2048x1 : Shape := ⟨2, ![2048, 1]⟩
abbrev S32x256 : Shape := ⟨2, ![32, 256]⟩

abbrev nBuf : Space → Nat
  | .hbm => 14
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S256x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S1x256, .f32⟩
  | .hbm, ⟨7, _⟩ => ⟨S65536x256, .f32⟩
  | .hbm, ⟨8, _⟩ => ⟨S32x1x256, .f32⟩
  | .hbm, ⟨9, _⟩ => ⟨S32x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S65536x256, .f32⟩
  | .local _ .vmem, ⟨0, _⟩ => ⟨S2048x1024, .f32⟩
  | .local _ .vmem, ⟨1, _⟩ => ⟨S2048x1024, .f32⟩
  | .local _ .vmem, ⟨2, _⟩ => ⟨S256x1024, .f32⟩
  | .local _ .vmem, ⟨3, _⟩ => ⟨S1x256, .f32⟩
  | .local _ .vmem, ⟨4, _⟩ => ⟨S2048x256, .f32⟩
  | .local _ .vmem, ⟨5, _⟩ => ⟨S2048x256, .f32⟩
  | .local _ .vmem, ⟨6, _⟩ => ⟨S1x1x256, .f32⟩
  | .local _ .vmem, ⟨7, _⟩ => ⟨S1x1x256, .f32⟩
  | .local _ .vmem, ⟨8, _⟩ => ⟨S2048x256, .f32⟩
  | .local _ .vmem, ⟨9, _⟩ => ⟨S2048x256, .f32⟩
  | .local _ .vmem, ⟨10, _⟩ => ⟨S1x256, .f32⟩
  | .local _ .vmem, ⟨11, _⟩ => ⟨S2048x256, .f32⟩
  | .local _ .vmem, ⟨12, _⟩ => ⟨S2048x256, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S256x1024_S256_d1 : S256x1024.ReducesTo [1] S256
  h_S_ : 0 < S_.numel
  bcast_S256_S256x1_0 : S256.BroadcastsInDim S256x1 (![0] : Fin 1 → Fin S256x1.rank)
  shapeCasts_S256x1_S1x256 : S256x1.ShapeCasts S1x256
  inb_S2048x1024_S2048x1024_0_0 : ∀ a, (![0, 0] : Fin 2 → Nat) a + S2048x1024.size a ≤ S2048x1024.size a
  h_S2048x1024 : 0 < S2048x1024.numel
  inb_S256x1024_S256x1024_0_0 : ∀ a, (![0, 0] : Fin 2 → Nat) a + S256x1024.size a ≤ S256x1024.size a
  h_S256x1024 : 0 < S256x1024.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S2048x1024_S2048 : S2048x1024.Reduces [1] S2048
  shapeCasts_S2048_S2048x1 : S2048.ShapeCasts S2048x1
  bitsLt_bf16_f32 : FTy.bits .bf16 < FTy.bits .f32
  broadcasts_S2048x1_S2048x256 : S2048x1.Broadcasts S2048x256
  broadcasts_S1x256_S2048x256 : S1x256.Broadcasts S2048x256
  reduces_S2048x256_S2048 : S2048x256.Reduces [1] S2048
  inb_S2048x256_S2048x256_0_0 : ∀ a, (![0, 0] : Fin 2 → Nat) a + S2048x256.size a ≤ S2048x256.size a
  h_S2048x256 : 0 < S2048x256.numel
  reduces_S2048x256_S256 : S2048x256.Reduces [0] S256
  shapeCasts_S256_S1x256 : S256.ShapeCasts S1x256
  shapeCasts_S1x256_S1x1x256 : S1x256.ShapeCasts S1x1x256
  inb_S1x1x256_S1x1x256_0_0_0 : ∀ a, (![0, 0, 0] : Fin 3 → Nat) a + S1x1x256.size a ≤ S1x1x256.size a
  h_S1x1x256 : 0 < S1x1x256.numel
  shapeCasts_S32x1x256_S32x256 : S32x1x256.ShapeCasts S32x256
  reducesTo_S32x256_S256_d0 : S32x256.ReducesTo [0] S256
  bcast_S256_S1x256_1 : S256.BroadcastsInDim S1x256 (![1] : Fin 1 → Fin S1x256.rank)
  shapeCasts_S2048x256_S2048x256 : S2048x256.ShapeCasts S2048x256
  dot_S2048x1024_S256x1024_S2048x256_1_1_0_0_n_n_wf : DotDims.WF S2048x1024 S256x1024 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256.size a ≤ S65536x256.size a
  hwx0_3 : ∀ i : grid0.Coords, EltTy.bits .f32 = 32 ∨ (Rect.block (s := S65536x256) S2048x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x256.size a
  hwx0_4 : ∀ i : grid0.Coords, EltTy.bits .f32 = 32 ∨ (Rect.block (s := S32x1x256) S1x1x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S65536x256.size a
  hwx1_2 : ∀ i : grid1.Coords, EltTy.bits .f32 = 32 ∨ (Rect.block (s := S65536x256) S2048x256.size (cc1_transform_2 i) (hinb1_2 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S2048x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x1x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4_0) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x1024 : Shape := ⟨2, ![65536, 1024]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S256 : Shape := ⟨1, ![256]⟩
abbrev S1x256 : Shape := ⟨2, ![1, 256]⟩
abbrev S65536x256 : Shape := ⟨2, ![65536, 256]⟩
abbrev S1024x256 : Shape := ⟨2, ![1024, 256]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S256x1024, .f32⟩
  | .hbm, ⟨2, _⟩ => ⟨S65536x1024, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S1x256, .f32⟩
  | .hbm, ⟨10, _⟩ => ⟨S65536x256, .f32⟩
  | .hbm, ⟨11, _⟩ => ⟨S65536x256, .f32⟩
  | .hbm, ⟨12, _⟩ => ⟨S65536x256, .f32⟩
  | .hbm, ⟨13, _⟩ => ⟨S1024x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S65536x256, .f32⟩
  | .hbm, ⟨19, _⟩ => ⟨S_, .f32⟩
  | .hbm, ⟨20, _⟩ => ⟨S65536x256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536x256, .f32⟩
  | .hbm, ⟨28, _⟩ => ⟨S65536x256, .f32⟩
  | .hbm, ⟨29, _⟩ => ⟨S_, .f32⟩
  | .hbm, ⟨30, _⟩ => ⟨S65536x256, .f32⟩
  | .hbm, ⟨31, _⟩ => ⟨S65536x256, .f32⟩
  | .hbm, ⟨32, _⟩ => ⟨S_, .f32⟩
  | .hbm, ⟨33, _⟩ => ⟨S65536, .f32⟩
  | .hbm, ⟨34, _⟩ => ⟨S65536x1, .f32⟩
  | .hbm, ⟨35, _⟩ => ⟨S65536x256, .f32⟩
  | .hbm, ⟨36, _⟩ => ⟨S65536x256, .f32⟩
  | .hbm, ⟨37, _⟩ => ⟨S_, .f32⟩
  | .hbm, ⟨38, _⟩ => ⟨S256, .f32⟩
  | .hbm, ⟨39, _⟩ => ⟨S65536x256, .f32⟩
  | .hbm, ⟨40, _⟩ => ⟨S1x256, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S65536x256, .f32⟩
  | .hbm, ⟨47, _⟩ => ⟨S65536x256, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_cst_6 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_8 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  reducesTo_S65536x1024_S65536_d1 : S65536x1024.ReducesTo [1] S65536
  h_S_ : 0 < S_.numel
  bcast_S65536_S65536x1_0 : S65536.BroadcastsInDim S65536x1 (![0] : Fin 1 → Fin S65536x1.rank)
  reducesTo_S256x1024_S256_d1 : S256x1024.ReducesTo [1] S256
  bcast_S256_S1x256_1 : S256.BroadcastsInDim S1x256 (![1] : Fin 1 → Fin S1x256.rank)
  bcast_S65536x1_S65536x256_0_1 : S65536x1.BroadcastsInDim S65536x256 (![0, 1] : Fin 2 → Fin S65536x256.rank)
  bcast_S1x256_S65536x256_0_1 : S1x256.BroadcastsInDim S65536x256 (![0, 1] : Fin 2 → Fin S65536x256.rank)
  transposes_S256x1024_S1024x256_1_0 : S256x1024.Transposes [1, 0] S1024x256
  bcast_S_S65536x256 : S_.BroadcastsInDim S65536x256 (![] : Fin 0 → Fin S65536x256.rank)
  reducesTo_S65536x256_S65536_d1 : S65536x256.ReducesTo [1] S65536
  reducesTo_S65536x256_S256_d0 : S65536x256.ReducesTo [0] S256
  dot_S65536x1024_S1024x256_S65536x256_1_0_0_1_n_n_wf : DotDims.WF S65536x1024 S1024x256 S65536x256 [1] [0] [0] [1] [] []

variable [Facts₀]

def dot_S65536x1024_S1024x256_S65536x256_1_0_0_1_n_n : DotDims S65536x1024 S1024x256 S65536x256 where
  lhsContracting := [1]
  rhsContracting := [0]
  lhsNonContracting := [0]
  rhsNonContracting := [1]
  lhsBatch := []
  rhsBatch := []
  wf := dot_S65536x1024_S1024x256_S65536x256_1_0_0_1_n_n_wf

class Facts : Prop extends Facts₀ where

variable [Facts]
-- ==== Proof.Spec.lean ====
/-
  The mathematics both programs compute, stated once over the extended reals.

  For a data row `zr` (1024 entries), the centroid table `c` (256 rows) and the centroids' squared norms `c2`:
  the squared distance to centroid `j` is `‖zr‖² + c2 j − 2 ⟨zr, c j⟩`, clamped below by a small constant; its
  square root `D j`; the Student-t weight `1 / (1 + D j)`; and the soft assignment, that weight divided by the
  row's total weight (`softRow`). The target distribution of a row `qr` of soft assignments against the column
  totals `f` is `qr j² / f j` divided by its row total (`pRow`). The column totals are the sum of the soft
  assignments over all 65536 rows (`colSum`), which one program takes at once and the other as the sum of 32
  partial sums over consecutive groups of 2048 rows (`partOf`, `fOf`): addition on the extended reals is
  commutative and associative, so the two agree (`fOf_partOf`) with no finiteness hypothesis.
-/
import Idealize.ShloMosaic.PureOps.Ideal
import Idealize.ShloMosaic.Lib.ValueIdx

noncomputable section

namespace Cert.Assign

open Idealize.ShloMosaic Idealize.ShloMosaic.ValueIdx

/-- The shapes of the data, the centroids, the assignments, a row of column totals, the partial column totals. -/
abbrev SZ : Shape := ⟨2, ![65536, 1024]⟩
abbrev SC : Shape := ⟨2, ![256, 1024]⟩
abbrev SQ : Shape := ⟨2, ![65536, 256]⟩
abbrev SF : Shape := ⟨2, ![1, 256]⟩
abbrev SPart : Shape := ⟨3, ![32, 1, 256]⟩

theorem part_lt0 (y : SPart.Idx) : (y 0).val < 32 := (y 0).isLt
theorem part_lt2 (y : SPart.Idx) : (y 2).val < 256 := (y 2).isLt

/-- The Student-t weight of centroid `j` for the data row `zr`: `1 / (1 + √(max (‖zr‖² + c2 j − 2 ⟨zr, c j⟩) ε))`. -/
def numRow (zr : Fin 1024 → EReal) (c : SC.Idx → EReal) (c2 : SF.Idx → EReal) (j : Fin 256) : EReal :=
  Ideal.div (Ideal.ofBits .f32 0x3F800000#32)
    (Ideal.ofBits .f32 0x3F800000#32 + Ideal.sqrt (max
      (((∑ k : Fin 1024, zr k * zr k) + c2 (ix2 (0 : Fin 1) j))
        - Ideal.ofBits .f32 0x40000000#32 * ∑ k : Fin 1024, zr k * c (ix2 j k))
      (Ideal.ofBits .f32 0x2B8CBCCC#32)))

/-- The soft assignment of the row to centroid `j`: its weight over the row's total weight. -/
def softRow (zr : Fin 1024 → EReal) (c : SC.Idx → EReal) (c2 : SF.Idx → EReal) (j : Fin 256) : EReal :=
  Ideal.div (numRow zr c c2 j) (∑ j' : Fin 256, numRow zr c c2 j')

/-- The soft assignments of every data row, as one array. -/
def qOf (z : SZ.Idx → EReal) (c : SC.Idx → EReal) (c2 : SF.Idx → EReal) : SQ.Idx → EReal :=
  fun y => softRow (fun k => z (ix2 (⟨(y 0).val, idx2_lt0 y⟩ : Fin 65536) k)) c c2 ⟨(y 1).val, idx2_lt1 y⟩

theorem qOf_ix2 (z : SZ.Idx → EReal) (c : SC.Idx → EReal) (c2 : SF.Idx → EReal) (i : Fin 65536) (j : Fin 256) :
    qOf z c c2 (ix2 i j) = softRow (fun k => z (ix2 i k)) c c2 j := rfl

/-- The centroids' squared norms, as a row. -/
def c2Of (c : SC.Idx → EReal) : SF.Idx → EReal :=
  fun y => ∑ k : Fin 1024, c (ix2 (⟨(y 1).val, idx2_lt1 y⟩ : Fin 256) k) * c (ix2 (⟨(y 1).val, idx2_lt1 y⟩ : Fin 256) k)

theorem c2Of_ix2 (c : SC.Idx → EReal) (a : Fin 1) (j : Fin 256) :
    c2Of c (ix2 a j) = ∑ k : Fin 1024, c (ix2 j k) * c (ix2 j k) := rfl

/-- The target distribution of one row `qr` of soft assignments against the column totals `f`. -/
def pRow (qr : Fin 256 → EReal) (f : SF.Idx → EReal) (j : Fin 256) : EReal :=
  Ideal.div (Ideal.div (qr j * qr j) (f (ix2 (0 : Fin 1) j)))
    (∑ j' : Fin 256, Ideal.div (qr j' * qr j') (f (ix2 (0 : Fin 1) j')))

/-- The target distribution of every row, as one array. -/
def pOf (q : SQ.Idx → EReal) (f : SF.Idx → EReal) : SQ.Idx → EReal :=
  fun y => pRow (fun j => q (ix2 (⟨(y 0).val, idx2_lt0 y⟩ : Fin 65536) j)) f ⟨(y 1).val, idx2_lt1 y⟩

theorem pOf_ix2 (q : SQ.Idx → EReal) (f : SF.Idx → EReal) (i : Fin 65536) (j : Fin 256) :
    pOf q f (ix2 i j) = pRow (fun j' => q (ix2 i j')) f j := rfl

/-- The column totals of an array of assignments, as a row. -/
def colSum (q : SQ.Idx → EReal) : SF.Idx → EReal :=
  fun y => ∑ i : Fin 65536, q (ix2 i (⟨(y 1).val, idx2_lt1 y⟩ : Fin 256))

theorem colSum_ix2 (q : SQ.Idx → EReal) (a : Fin 1) (j : Fin 256) : colSum q (ix2 a j) = ∑ i : Fin 65536, q (ix2 i j) := rfl

/-- The partial column totals: group `b` sums rows `2048 b … 2048 b + 2047`. -/
def partOf (q : SQ.Idx → EReal) : SPart.Idx → EReal :=
  fun y => ∑ r : Fin 2048, q (ix2 (⟨(y 0).val * 2048 + r.val, by have := part_lt0 y; omega⟩ : Fin 65536)
    (⟨(y 2).val, part_lt2 y⟩ : Fin 256))

theorem partOf_ix3 (q : SQ.Idx → EReal) (b : Fin 32) (a : Fin 1) (j : Fin 256) :
    partOf q (ix3 b a j) = ∑ r : Fin 2048, q (ix2 (⟨b.val * 2048 + r.val, by omega⟩ : Fin 65536) j) := rfl

/-- The sum of the 32 partial totals, as a row. -/
def fOf (part : SPart.Idx → EReal) : SF.Idx → EReal :=
  fun y => ∑ b : Fin 32, part (ix3 b (0 : Fin 1) (⟨(y 1).val, idx2_lt1 y⟩ : Fin 256))

theorem fOf_ix2 (part : SPart.Idx → EReal) (a : Fin 1) (j : Fin 256) :
    fOf part (ix2 a j) = ∑ b : Fin 32, part (ix3 b (0 : Fin 1) j) := rfl

/-- A sum over 65536 rows is the sum over 32 groups of the sums over each group's 2048 rows. -/
theorem sum_groups (g : Fin 65536 → EReal) :
    ∑ b : Fin 32, ∑ r : Fin 2048, g ⟨b.val * 2048 + r.val, by omega⟩ = ∑ i : Fin 65536, g i := by
  rw [← Fintype.sum_prod_type']
  refine Fintype.sum_equiv (finProdFinEquiv (m := 32) (n := 2048)) _ _ fun x => congrArg g (Fin.ext ?_)
  show x.1.val * 2048 + x.2.val = x.2.val + 2048 * x.1.val
  omega

/-- The sum of the partial column totals is the column total. -/
theorem fOf_partOf (q : SQ.Idx → EReal) : fOf (partOf q) = colSum q := by
  funext y
  obtain ⟨a, j, rfl⟩ : ∃ (a : Fin 1) (j : Fin 256), y = ix2 a j := ⟨y 0, y 1, eq_ix2 y⟩
  rw [fOf_ix2, colSum_ix2]
  simp only [partOf_ix3]
  exact sum_groups fun i => q (ix2 i j)

end Cert.Assign

end
-- ==== Proof.PayQ.lean ====
/-
  The arithmetic of the soft-assignment block, read at an index.

  For a block of 2048 data rows `z`, the 256 centroids `c` and their squared norms `c2`, the block's first value at
  `(r, j)` is the Student-t weight `1 / (1 + √(max (‖z r‖² + c2 j − 2 ⟨z r, c j⟩) ε))` divided by the sum of the row's 256
  weights (`pay1_apply`: it is `Cert.Assign.softRow` of row `r`), and its second value at column `j` is the sum of the
  first over the 2048 rows (`pay2_apply`). Each step that is not elementwise is read at an index by a lemma of its own:
  a vector turned into a column and a column spread over the columns (`shapeCast_a_a1_apply`, `broadcastTo_a1_ab_apply`),
  the sums along one axis as `Fin`-indexed sums (`laneSum1024_apply`, `laneSum256_apply`, `rowSum2048_apply`), and the
  product of the rows with the centroids, both contracted on their 1024 lanes, as `∑ k, z (r, k) * c (j, k)`
  (`matmulQ_apply`). At the extended reals a change of float format is the identity, so the narrowing before the product
  leaves no trace.
-/
import proofs.«102567_j76046690943287_2_alg».proof.Proof.Gen.KernelIdeal.Skeleton
import proofs.«102567_j76046690943287_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.QValue

open Cert.KernelIdeal Cert.KernelIdeal.Gen Idealize.ShloMosaic Idealize.ShloMosaic.ValueIdx

/-- A vector `[a]` cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the 1024 lanes of a `[2048, 1024]` array, read at row `r`. -/
theorem laneSum1024_apply (src : FVec Ideal S2048x1024 .f32) (r : Fin 2048) :
    multiReduction (F := Ideal) .add [1] S2048 src 0x00000000#32 reduces_S2048x1024_S2048 (.inl rfl) rfl (ix1 r)
      = ∑ k : Fin 1024, src (ix2 r k) := by
  refine (Ideal.multiReduction_add_single src 0x00000000#32 reduces_S2048x1024_S2048 (.inl rfl) rfl (ix1 r)).trans ?_
  refine Finset.sum_congr rfl fun k _ => congrArg src ?_
  funext a
  match a with
  | ⟨0, _⟩ => rfl
  | ⟨1, _⟩ => rfl

/-- A sum over the 256 lanes of a `[2048, 256]` array, read at row `r`. -/
theorem laneSum256_apply (src : FVec Ideal S2048x256 .f32) (r : Fin 2048) :
    multiReduction (F := Ideal) .add [1] S2048 src 0x00000000#32 reduces_S2048x256_S2048 (.inl rfl) rfl (ix1 r)
      = ∑ k : Fin 256, src (ix2 r k) := by
  refine (Ideal.multiReduction_add_single src 0x00000000#32 reduces_S2048x256_S2048 (.inl rfl) rfl (ix1 r)).trans ?_
  refine Finset.sum_congr rfl fun k _ => congrArg src ?_
  funext a
  match a with
  | ⟨0, _⟩ => rfl
  | ⟨1, _⟩ => rfl

/-- A sum over the 2048 rows of a `[2048, 256]` array, read at column `j`. -/
theorem rowSum2048_apply (src : FVec Ideal S2048x256 .f32) (j : Fin 256) :
    multiReduction (F := Ideal) .add [0] S256 src 0x00000000#32 reduces_S2048x256_S256 (.inl rfl) rfl (ix1 j)
      = ∑ r : Fin 2048, src (ix2 r j) := by
  refine (Ideal.multiReduction_add_single src 0x00000000#32 reduces_S2048x256_S256 (.inl rfl) rfl (ix1 j)).trans ?_
  refine Finset.sum_congr rfl fun k _ => congrArg src ?_
  funext a
  match a with
  | ⟨0, _⟩ => rfl
  | ⟨1, _⟩ => rfl

/-- The dimension numbers of the kernel's product: both operands contracted on their lane axis. -/
abbrev dotQ : DotDims S2048x1024 S256x1024 S2048x256 := dot_S2048x1024_S256x1024_S2048x256_1_1_0_0_n_n

theorem dotQ_lhs0 (i : S2048x256.Idx) (q : dotQ.contr.Idx) : (dotQ.lhsIdx i q 0).val = (i 0).val := by
  unfold DotDims.lhsIdx
  rw [dif_neg (show ¬(0 : Fin S2048x1024.rank) ∈ dotQ.lhsBatch by decide), dif_pos (show (0 : Fin S2048x1024.rank) ∈ dotQ.lhsNonContracting by decide)]
  rfl
theorem dotQ_lhs1 (i : S2048x256.Idx) (q : dotQ.contr.Idx) : (dotQ.lhsIdx i q 1).val = (q ⟨0, by decide⟩).val :=
  dotQ.lhsIdx_val_of_single rfl i q
theorem dotQ_rhs0 (i : S2048x256.Idx) (q : dotQ.contr.Idx) : (dotQ.rhsIdx i q 0).val = (i 1).val := by
  unfold DotDims.rhsIdx
  rw [dif_neg (show ¬(0 : Fin S256x1024.rank) ∈ dotQ.rhsBatch by decide), dif_pos (show (0 : Fin S256x1024.rank) ∈ dotQ.rhsNonContracting by decide)]
  rfl
theorem dotQ_rhs1 (i : S2048x256.Idx) (q : dotQ.contr.Idx) : (dotQ.rhsIdx i q 1).val = (q ⟨0, by decide⟩).val :=
  dotQ.rhsIdx_val_of_single rfl i q

/-- The product into a zero accumulator, read at `(r, j)`: the sum over the 1024 lanes of the products of row `r` of the
    left operand and row `j` of the right one. -/
theorem matmulQ_apply (l : FVec Ideal S2048x1024 .bf16) (c : FVec Ideal S256x1024 .bf16) (r : Fin 2048) (j : Fin 256) :
    matmul dotQ none l c (constant (F := Ideal) S2048x256 .f32 0x00000000#32) (ix2 r j)
      = ∑ k : Fin 1024, l (ix2 r k) * c (ix2 j k) := by
  simp only [matmul]
  rw [Ideal.matmul_constant_zero_apply, ← Equiv.sum_comp (contrEquiv1 dotQ 1024 rfl rfl).symm]
  refine Finset.sum_congr rfl fun k _ => ?_
  have hk := contrEquiv1_symm_val dotQ 1024 rfl rfl k
  have el : dotQ.lhsIdx (ix2 r j) ((contrEquiv1 dotQ 1024 rfl rfl).symm k) = ix2 r k := funext fun a => Fin.ext (by
    match a with
    | ⟨0, _⟩ => exact dotQ_lhs0 _ _
    | ⟨1, _⟩ => exact (dotQ_lhs1 _ _).trans hk)
  have er : dotQ.rhsIdx (ix2 r j) ((contrEquiv1 dotQ 1024 rfl rfl).symm k) = ix2 j k := funext fun a => Fin.ext (by
    match a with
    | ⟨0, _⟩ => exact dotQ_rhs0 _ _
    | ⟨1, _⟩ => exact (dotQ_rhs1 _ _).trans hk)
  rw [el, er]

/-- The row's squared norm, spread over the 256 columns. -/
def sqNorm (x0 : Vec Ideal S2048x1024 .f32) : FVec Ideal S2048x256 .f32 :=
  broadcastTo S2048x256
    (shapeCast S2048x1 (multiReduction (F := Ideal) .add [1] S2048 (mulf x0 x0) 0x00000000#32 reduces_S2048x1024_S2048 (.inl rfl) rfl)
      shapeCasts_S2048_S2048x1) broadcasts_S2048x1_S2048x256

theorem sqNorm_apply (x0 : Vec Ideal S2048x1024 .f32) (r : Fin 2048) (j : Fin 256) :
    sqNorm x0 (ix2 r j) = ∑ k : Fin 1024, x0 (ix2 r k) * x0 (ix2 r k) := by
  unfold sqNorm
  refine (broadcastTo_a1_ab_apply _ _ r j).trans ?_
  refine (shapeCast_a_a1_apply _ _ r (0 : Fin 1)).trans ?_
  exact laneSum1024_apply (mulf x0 x0) r

/-- The centroids' squared norms, spread over the 2048 rows. -/
def c2Bcast (x2 : Vec Ideal S1x256 .f32) : FVec Ideal S2048x256 .f32 :=
  broadcastTo S2048x256 (shapeCast S1x256 x2 shapeCasts_S1x256_S1x256) broadcasts_S1x256_S2048x256

theorem c2Bcast_apply (x2 : Vec Ideal S1x256 .f32) (r : Fin 2048) (j : Fin 256) :
    c2Bcast x2 (ix2 r j) = x2 (ix2 (0 : Fin 1) j) := by
  unfold c2Bcast
  rw [shapeCast_self]
  exact broadcastTo_1b_ab_apply x2 _ r j

/-- The inner products of the rows with the centroids. -/
def cross (x0 : Vec Ideal S2048x1024 .f32) (x1 : Vec Ideal S256x1024 .f32) : FVec Ideal S2048x256 .f32 :=
  matmul dotQ none (truncf .bf16 x0 bitsLt_bf16_f32) (truncf .bf16 x1 bitsLt_bf16_f32) (constant (F := Ideal) S2048x256 .f32 0x00000000#32)

theorem cross_apply (x0 : Vec Ideal S2048x1024 .f32) (x1 : Vec Ideal S256x1024 .f32) (r : Fin 2048) (j : Fin 256) :
    cross x0 x1 (ix2 r j) = ∑ k : Fin 1024, x0 (ix2 r k) * x1 (ix2 j k) := by
  unfold cross
  exact matmulQ_apply _ _ r j

/-- The Student-t weights of the block: `1 / (1 + √(max (‖z‖² + c2 − 2 ⟨z, c⟩) ε))`. -/
def weight (x0 : Vec Ideal S2048x1024 .f32) (x1 : Vec Ideal S256x1024 .f32) (x2 : Vec Ideal S1x256 .f32) : FVec Ideal S2048x256 .f32 :=
  divf (broadcast S2048x256 (Scalar.ofBits (F := Ideal) .f32 0x3F800000#32))
    (addf (broadcast S2048x256 (Scalar.ofBits (F := Ideal) .f32 0x3F800000#32))
      (sqrt (maximumf
        (subf (addf (sqNorm x0) (c2Bcast x2)) (mulf (broadcast S2048x256 (Scalar.ofBits (F := Ideal) .f32 0x40000000#32)) (cross x0 x1)))
        (broadcast S2048x256 (Scalar.ofBits (F := Ideal) .f32 0x2B8CBCCC#32)))))

theorem weight_apply (x0 : Vec Ideal S2048x1024 .f32) (x1 : Vec Ideal S256x1024 .f32) (x2 : Vec Ideal S1x256 .f32) (r : Fin 2048) (j : Fin 256) :
    weight x0 x1 x2 (ix2 r j) = Cert.Assign.numRow (fun k => x0 (ix2 r k)) x1 x2 j := by
  unfold weight Cert.Assign.numRow
  show Ideal.div (Ideal.ofBits .f32 0x3F800000#32)
    (Ideal.ofBits .f32 0x3F800000#32 + Ideal.sqrt (max
      ((sqNorm x0 (ix2 r j) + c2Bcast x2 (ix2 r j)) - Ideal.ofBits .f32 0x40000000#32 * cross x0 x1 (ix2 r j))
      (Ideal.ofBits .f32 0x2B8CBCCC#32))) = _
  rw [sqNorm_apply, c2Bcast_apply, cross_apply]

/-- The kernel's first payload is the weights over their row totals. -/
theorem pay1_eq (x0 : Vec Ideal S2048x1024 .f32) (x1 : Vec Ideal S256x1024 .f32) (x2 : Vec Ideal S1x256 .f32) :
    k0_pay1 (F := Ideal) x0 x1 x2 = divf (weight x0 x1 x2)
      (broadcastTo S2048x256 (shapeCast S2048x1
        (multiReduction (F := Ideal) .add [1] S2048 (weight x0 x1 x2) 0x00000000#32 reduces_S2048x256_S2048 (.inl rfl) rfl)
        shapeCasts_S2048_S2048x1) broadcasts_S2048x1_S2048x256) := rfl

theorem pay1_apply (x0 : Vec Ideal S2048x1024 .f32) (x1 : Vec Ideal S256x1024 .f32) (x2 : Vec Ideal S1x256 .f32) (r : Fin 2048) (j : Fin 256) :
    k0_pay1 (F := Ideal) x0 x1 x2 (ix2 r j) = Cert.Assign.softRow (fun k => x0 (ix2 r k)) x1 x2 j := by
  rw [pay1_eq]
  generalize hw : weight x0 x1 x2 = w
  unfold Cert.Assign.softRow
  refine (divf_apply _ _ _).trans ?_
  have hden : broadcastTo S2048x256 (shapeCast S2048x1
        (multiReduction (F := Ideal) .add [1] S2048 w 0x00000000#32 reduces_S2048x256_S2048 (.inl rfl) rfl)
        shapeCasts_S2048_S2048x1) broadcasts_S2048x1_S2048x256 (ix2 r j) = ∑ j' : Fin 256, w (ix2 r j') := by
    refine (broadcastTo_a1_ab_apply _ _ r j).trans ?_
    refine (shapeCast_a_a1_apply _ _ r (0 : Fin 1)).trans ?_
    exact laneSum256_apply w r
  rw [hden]
  subst hw
  rw [weight_apply]
  exact congrArg _ (Finset.sum_congr rfl fun j' _ => weight_apply x0 x1 x2 r j')

theorem pay2_apply (x0 : Vec Ideal S2048x1024 .f32) (x1 : Vec Ideal S256x1024 .f32) (x2 : Vec Ideal S1x256 .f32) (j : Fin 256) :
    k0_pay2 (F := Ideal) x0 x1 x2 (ix3 (0 : Fin 1) (0 : Fin 1) j) = ∑ r : Fin 2048, k0_pay1 (F := Ideal) x0 x1 x2 (ix2 r j) := by
  unfold k0_pay2
  generalize k0_pay1 (F := Ideal) x0 x1 x2 = q
  refine (shapeCast_ab_1ab_apply _ _ (0 : Fin 1) (0 : Fin 1) j).trans ?_
  refine (shapeCast_a_1a_apply _ _ (0 : Fin 1) j).trans ?_
  exact rowSum2048_apply q j

end Cert.KernelIdeal.QValue

end
-- ==== Proof.RegionQ.lean ====
/-
  The first region's two output arrays after its 32 grid points, each as ONE function of the arrays the region
  found (the data, the centroids, the centroids' squared norms), whatever those are.

  Point `t` loads rows `2048 t … 2048 t + 2047` of the data and the whole of the other two arrays, and writes back
  (a) the soft assignments of those 2048 rows — which depend on nothing but the row itself, the centroids and
  their squared norms, so they are rows `2048 t …` of the soft assignments of the WHOLE data array — and (b) the
  column sums of that block, which is entry `t` of the partial column totals. The 32 blocks of 2048 rows tile the
  65536 rows, and the 32 unit blocks tile the partial totals, so each array ends holding the whole-array function.
-/
import proofs.«102567_j76046690943287_2_alg».proof.Proof.Gen.KernelIdeal.Frame
import proofs.«102567_j76046690943287_2_alg».proof.Proof.Spec
import proofs.«102567_j76046690943287_2_alg».proof.Proof.PayQ
import Idealize.ShloMosaic.Lib.Pipeline.Value
import Idealize.ShloMosaic.Lib.ValueIdx

set_option maxRecDepth 16384

noncomputable section

namespace Cert.KernelIdeal.QArr

open Cert.KernelIdeal Cert.KernelIdeal.Gen Idealize.ShloMosaic Idealize.ShloMosaic.TcCoe Idealize.ShloMosaic.ValueIdx
open Idealize.SL.Sem Cert.Assign

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the data and both outputs move one block per point along the rows; the
    centroids and their squared norms stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Block `t` of the data is rows `2048 t … 2048 t + 2047`, every column. -/
theorem blk0_read (c : Dev nD) (t : Fin cfg0.N) (r : Fin 2048) (k : Fin 1024) :
    iblk0 V c 0 t (ix2 r k) = V c main_arg0 (ix2 (⟨t.val * 2048 + r.val, by have := t.isLt; have hN : cfg0.N = 32 := N_0; omega⟩ : Fin 65536) k) := by
  obtain ⟨e0, e1, -⟩ := idx_facts t
  show V c main_arg0 (((cfg0.win 0).blk t).view.emb (ix2 r k)) = _
  refine congrArg (V c main_arg0) (funext fun a => Fin.ext ?_)
  match a with
  | ⟨0, _⟩ => show win0_0.index t (0 : Fin 2) * 2048 + 1 * r.val = t.val * 2048 + r.val; omega
  | ⟨1, _⟩ => show win0_0.index t (1 : Fin 2) * 1024 + 1 * k.val = k.val; omega

/-- Every point's block of the centroids is the whole array. -/
theorem blk1_read (c : Dev nD) (t : Fin cfg0.N) : (iblk0 V c 1 t : S256x1024.Idx → EReal) = V c main_arg1 := by
  obtain ⟨-, -, e0, e1, -⟩ := idx_facts t
  funext y
  show V c main_arg1 (((cfg0.win 1).blk t).view.emb y) = _
  refine congrArg (V c main_arg1) (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega

/-- Every point's block of the squared norms is the whole row. -/
theorem blk2_read (c : Dev nD) (t : Fin cfg0.N) : (iblk0 V c 2 t : S1x256.Idx → EReal) = V c main_v3 := by
  obtain ⟨-, -, -, -, e0, e1, -⟩ := idx_facts t
  funext y
  show V c main_v3 (((cfg0.win 2).blk t).view.emb y) = _
  refine congrArg (V c main_v3) (funext fun a => Fin.ext ?_)
  match a with
  | ⟨0, _⟩ => show win0_2.index t (0 : Fin 2) * 1 + 1 * (y 0).val = (y 0).val; omega
  | ⟨1, _⟩ => show win0_2.index t (1 : Fin 2) * 256 + 1 * (y 1).val = (y 1).val; omega

/-- A block of soft assignments computed from a block of data rows is the block of the whole array's. -/
theorem softBlock (x0 : Vec Ideal S2048x1024 .f32) (x1 : Vec Ideal S256x1024 .f32) (x2 : Vec Ideal S1x256 .f32)
    (z : SZ.Idx → EReal) (cen : SC.Idx → EReal) (c2 : SF.Idx → EReal) (tt : Nat) (htt : tt < 32)
    (h0 : ∀ (r : Fin 2048) (k : Fin 1024), x0 (ix2 r k) = z (ix2 (⟨tt * 2048 + r.val, by omega⟩ : Fin 65536) k))
    (h1 : x1 = cen) (h2 : x2 = c2)
    (y : S2048x256.Idx) (i : SQ.Idx) (hi0 : (i 0).val = tt * 2048 + (y 0).val) (hi1 : (i 1).val = (y 1).val) :
    k0_pay1 (F := Ideal) x0 x1 x2 y = qOf z cen c2 i := by
  subst h1 h2
  obtain ⟨r, j, rfl⟩ : ∃ (r : Fin 2048) (j : Fin 256), y = ix2 r j := ⟨y 0, y 1, eq_ix2 y⟩
  obtain ⟨i', j', rfl⟩ : ∃ (i' : Fin 65536) (j' : Fin 256), i = ix2 i' j' := ⟨i 0, i 1, eq_ix2 i⟩
  have hb : tt * 2048 + r.val < 65536 := by have := r.isLt; omega
  have e1 : i' = ⟨tt * 2048 + r.val, hb⟩ := Fin.ext hi0
  have e2 : j' = j := Fin.ext hi1
  subst e2
  rw [e1, QValue.pay1_apply, qOf_ix2]
  exact congrArg (fun f => softRow f x1 x2 j') (funext fun k => h0 r k)

/-- The column sums of a block of soft assignments are the partial column totals of the whole array's. -/
theorem partBlock (x0 : Vec Ideal S2048x1024 .f32) (x1 : Vec Ideal S256x1024 .f32) (x2 : Vec Ideal S1x256 .f32)
    (z : SZ.Idx → EReal) (cen : SC.Idx → EReal) (c2 : SF.Idx → EReal) (tt : Nat) (htt : tt < 32)
    (h0 : ∀ (r : Fin 2048) (k : Fin 1024), x0 (ix2 r k) = z (ix2 (⟨tt * 2048 + r.val, by omega⟩ : Fin 65536) k))
    (h1 : x1 = cen) (h2 : x2 = c2)
    (y : S1x1x256.Idx) (i : SPart.Idx) (hi0 : (i 0).val = tt) (hi2 : (i 2).val = (y 2).val) :
    k0_pay2 (F := Ideal) x0 x1 x2 y = partOf (qOf z cen c2) i := by
  obtain ⟨a, b, j, rfl⟩ : ∃ (a : Fin 1) (b : Fin 1) (j : Fin 256), y = ix3 a b j := ⟨y 0, y 1, y 2, eq_ix3 y⟩
  obtain ⟨bb, a', j', rfl⟩ : ∃ (bb : Fin 32) (a' : Fin 1) (j' : Fin 256), i = ix3 bb a' j' := ⟨i 0, i 1, i 2, eq_ix3 i⟩
  have ea : a = 0 := Subsingleton.elim _ _
  have eb : b = 0 := Subsingleton.elim _ _
  have e2 : j' = j := Fin.ext hi2
  have e0 : bb.val = tt := hi0
  subst ea eb e2
  rw [QValue.pay2_apply, partOf_ix3]
  refine Finset.sum_congr rfl fun r _ => ?_
  exact softBlock x0 x1 x2 z cen c2 tt htt h0 h1 h2 (ix2 r j') (ix2 (⟨bb.val * 2048 + r.val, by omega⟩ : Fin 65536) j')
    (by show bb.val * 2048 + r.val = tt * 2048 + r.val; rw [e0]) rfl

/-- What point `t` writes back to the assignments is block `t` of the whole array of soft assignments. -/
theorem flushed3_eq (c : Dev nD) (t : Fin cfg0.N) :
    (dat0 V c).flushed 3 t = ((cfg0.win 3).blk t).view.read (Elt Ideal) (qOf (V c main_arg0) (V c main_arg1) (V c main_v3)) := by
  show (cfg0.win 3).cut (grid0.coords t) ((dat0 V c).after 3 t) = _
  rw [after0_3]
  unfold out0_3
  rw [View.canon_unit_zero hz2]
  simp only [View.ld_unit_zero (S := S2048x1024) hz2, View.ld_unit_zero (S := S256x1024) hz2, View.ld_unit_zero (S := S1x256) hz2]
  obtain ⟨-, -, -, -, -, -, e0, e1, -⟩ := idx_facts t
  have hN : cfg0.N = 32 := N_0
  funext y
  show k0_pay1 (F := Ideal) (iblk0 V c 0 t) (iblk0 V c 1 t) (iblk0 V c 2 t) y
    = qOf (V c main_arg0) (V c main_arg1) (V c main_v3) (((cfg0.win 3).blk t).view.emb y)
  refine softBlock _ _ _ (V c main_arg0) (V c main_arg1) (V c main_v3) t.val (by have := t.isLt; omega)
    (fun r k => blk0_read V c t r k) (blk1_read V c t) (blk2_read V c t) y _ ?_ ?_
  · show win0_3.index t (0 : Fin 2) * 2048 + 1 * (y 0).val = t.val * 2048 + (y 0).val; omega
  · show win0_3.index t (1 : Fin 2) * 256 + 1 * (y 1).val = (y 1).val; omega

/-- What point `t` writes back to the partial totals is block `t` of the partial column totals. -/
theorem flushed4_eq (c : Dev nD) (t : Fin cfg0.N) :
    (dat0 V c).flushed 4 t
      = ((cfg0.win 4).blk t).view.read (Elt Ideal) (partOf (qOf (V c main_arg0) (V c main_arg1) (V c main_v3))) := by
  show (cfg0.win 4).cut (grid0.coords t) ((dat0 V c).after 4 t) = _
  rw [after0_4]
  unfold out0_4
  rw [View.canon_unit_zero hz3]
  simp only [View.ld_unit_zero (S := S2048x1024) hz2, View.ld_unit_zero (S := S256x1024) hz2, View.ld_unit_zero (S := S1x256) hz2]
  obtain ⟨-, -, -, -, -, -, -, -, e0, e1, e2⟩ := idx_facts t
  have hN : cfg0.N = 32 := N_0
  funext y
  show k0_pay2 (F := Ideal) (iblk0 V c 0 t) (iblk0 V c 1 t) (iblk0 V c 2 t) y
    = partOf (qOf (V c main_arg0) (V c main_arg1) (V c main_v3)) (((cfg0.win 4).blk t).view.emb y)
  refine partBlock _ _ _ (V c main_arg0) (V c main_arg1) (V c main_v3) t.val (by have := t.isLt; omega)
    (fun r k => blk0_read V c t r k) (blk1_read V c t) (blk2_read V c t) y _ ?_ ?_
  · show win0_4.index t (0 : Fin 3) * 1 + 1 * (y 0).val = t.val
    have : (y 0).val < 1 := (y 0).isLt
    omega
  · show win0_4.index t (2 : Fin 3) * 256 + 1 * (y 2).val = (y 2).val; omega

/-- An index lies in point `t`'s block of the assignments iff each coordinate lies in the block's range. -/
theorem mem_blk3 (t : Fin cfg0.N) (i : S65536x256.Idx) :
    i ∈ ((cfg0.win 3).blk t).view.set ↔ ∀ a : Fin 2, win0_3.index t a * S2048x256.size a ≤ (i a).val
      ∧ (i a).val < win0_3.index t a * S2048x256.size a + S2048x256.size a := by
  show i ∈ ((View.whole main_v4_0).slice (win0_3.rect t)).set ↔ _
  rw [View.set_slice_whole, Rect.mem_set_unit]
  exact Iff.rfl

/-- The same for the partial totals. -/
theorem mem_blk4 (t : Fin cfg0.N) (i : S32x1x256.Idx) :
    i ∈ ((cfg0.win 4).blk t).view.set ↔ ∀ a : Fin 3, win0_4.index t a * S1x1x256.size a ≤ (i a).val
      ∧ (i a).val < win0_4.index t a * S1x1x256.size a + S1x1x256.size a := by
  show i ∈ ((View.whole main_v4_1).slice (win0_4.rect t)).set ↔ _
  rw [View.set_slice_whole, Rect.mem_set_unit]
  exact Iff.rfl

/-- Every row of the assignments lies in the block of the point its row number divided by 2048 names. -/
theorem cover3 (i : S65536x256.Idx) : ∃ t : Fin cfg0.N, (cfg0.win 3).flush t = true ∧ i ∈ ((cfg0.win 3).blk t).view.set := by
  have hN : cfg0.N = 32 := N_0
  have hi0 : (i 0).val < 65536 := (i 0).isLt
  have hi1 : (i 1).val < 256 := (i 1).isLt
  let t : Fin cfg0.N := ⟨(i 0).val / 2048, by omega⟩
  have ht : t.val = (i 0).val / 2048 := rfl
  obtain ⟨-, -, -, -, -, -, e0, e1, -⟩ := idx_facts t
  refine ⟨t, flush0_3 t, ?_⟩
  rw [mem_blk3]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 256 ≤ (i 1).val ∧ (i 1).val < win0_3.index t (1 : Fin 2) * 256 + 256; omega

/-- Every partial total lies in the block of the point its group number names. -/
theorem cover4 (i : S32x1x256.Idx) : ∃ t : Fin cfg0.N, (cfg0.win 4).flush t = true ∧ i ∈ ((cfg0.win 4).blk t).view.set := by
  have hN : cfg0.N = 32 := N_0
  have hi0 : (i 0).val < 32 := (i 0).isLt
  have hi1 : (i 1).val < 1 := (i 1).isLt
  have hi2 : (i 2).val < 256 := (i 2).isLt
  let t : Fin cfg0.N := ⟨(i 0).val, by omega⟩
  have ht : t.val = (i 0).val := rfl
  obtain ⟨-, -, -, -, -, -, -, -, e0, e1, e2⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 256 ≤ (i 2).val ∧ (i 2).val < win0_4.index t (2 : Fin 3) * 256 + 256; omega

/-- After the first region the assignments' array holds the soft assignments of every data row, -/
theorem arr_q (c : Dev nD) :
    (dat0 V c).arrAt 3 cfg0.N = qOf (V c main_arg0) (V c main_arg1) (V c main_v3) :=
  (dat0 V c).arrAt_eq_of_cover 3 _ (fun t _ => flushed3_eq V c t) cover3

/-- and the partial totals' array their column sums over each group of 2048 rows. -/
theorem arr_part (c : Dev nD) :
    (dat0 V c).arrAt 4 cfg0.N = partOf (qOf (V c main_arg0) (V c main_arg1) (V c main_v3)) :=
  (dat0 V c).arrAt_eq_of_cover 4 _ (fun t _ => flushed4_eq V c t) cover4

end Cert.KernelIdeal.QArr
end
-- ==== Proof.RegionP.lean ====
/-
  The second kernel region: the target distribution.

  At each of its 32 grid points the region reads 2048 rows of the soft assignments `q` (256 columns) and the one row
  of column totals `f`, forms `q² / f` entry by entry, sums each row, and divides each entry by its row's sum: row
  by row this is `Cert.Assign.pRow`. `pay_p` reads the body's value at an index of a block; `arr_p` puts the 32
  blocks together: consecutive groups of 2048 rows tile the 65536 rows, so after the last point the result array is
  `Cert.Assign.pOf` of the two arrays the region found.
-/
import proofs.«102567_j76046690943287_2_alg».proof.Proof.Gen.KernelIdeal.Frame
import proofs.«102567_j76046690943287_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PValue

open Cert.KernelIdeal Cert.KernelIdeal.Gen Idealize.ShloMosaic Idealize.ShloMosaic.ValueIdx Idealize.ShloMosaic.TcCoe

/-! ## Two column forms of the layout operations, read at an index -/

/-- An `[a]` array cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's value at an index -/

/-- The unnormalised weight `q² / f` the body forms, at row `r` and column `k`. -/
theorem num_apply (x0 : Vec Ideal S2048x256 .f32) (x1 : Vec Ideal S1x256 .f32)
    (h0 : S2048x256.ShapeCasts S2048x256) (h1 : S1x256.ShapeCasts S1x256) (hb : S1x256.Broadcasts S2048x256)
    (r : Fin 2048) (k : Fin 256) :
    (divf (mulf (shapeCast S2048x256 x0 h0) (shapeCast S2048x256 x0 h0))
        (broadcastTo S2048x256 (shapeCast S1x256 x1 h1) hb) : FVec Ideal S2048x256 .f32) (ix2 r k)
      = Ideal.div (x0 (ix2 r k) * x0 (ix2 r k)) (x1 (ix2 (0 : Fin 1) k)) := by
  rw [shapeCast_self, shapeCast_self]
  exact congrArg (Ideal.div (x0 (ix2 r k) * x0 (ix2 r k))) (broadcastTo_1b_ab_apply x1 hb r k)

/-- The body's value at row `r`, column `j` of a block: the row's target distribution at `j`. -/
theorem pay_p (x0 : Vec Ideal S2048x256 .f32) (x1 : Vec Ideal S1x256 .f32) (r : Fin 2048) (j : Fin 256) :
    k1_pay1 (F := Ideal) x0 x1 (ix2 r j) = Cert.Assign.pRow (fun j' => x0 (ix2 r j')) x1 j := by
  unfold k1_pay1 Cert.Assign.pRow
  dsimp only
  refine congrArg₂ Ideal.div (num_apply x0 x1 _ _ _ r j) ?_
  refine (broadcastTo_a1_ab_apply _ _ r j).trans ?_
  refine (shapeCast_a_a1_apply _ _ r 0).trans ?_
  refine (Ideal.multiReduction_add_single _ 0x00000000#32 Facts₀.reduces_S2048x256_S2048 (.inl rfl) rfl (ix1 r)).trans ?_
  refine Finset.sum_congr rfl fun k _ => ?_
  have hl : Facts₀.reduces_S2048x256_S2048.lift (ix1 r) k = ix2 r k := by
    funext a
    match a with
    | ⟨0, _⟩ => rfl
    | ⟨1, _⟩ => rfl
  rw [hl]
  exact num_apply x0 x1 _ _ _ r k

/-! ## From the blocks to the array -/

section Array

variable (V : (c : Dev nD) → (b : Ref sig .tc) → Buf (Elt Ideal) ((c : Thread nD τ).loc b))

theorem zero_offsets : (![0, 0] : Fin 2 → Nat) = fun _ => 0 := funext fun a => by fin_cases a <;> rfl

/-- Where the three windows sit at grid point `t`: the assignments' and the result's blocks at rows `2048 t …`,
    all columns; the column totals' block is the whole row. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The assignments' block at point `t` holds rows `2048 t … 2048 t + 2047` of the array. -/
theorem q_block_apply (c : Dev nD) (t : Fin cfg1.N) (y : S2048x256.Idx) (i : S65536x256.Idx)
    (h0 : (i 0).val = 2048 * t.val + (y 0).val) (h1 : (i 1).val = (y 1).val) :
    (iblk1 V c 0 t : Vec Ideal S2048x256 .f32) y = (V c main_v4_0 : S65536x256.Idx → EReal) i := by
  obtain ⟨e0, e1, -⟩ := block_indices t
  show V c main_v4_0 (((cfg1.win 0).blk t).view.emb y) = V c main_v4_0 i
  refine congrArg (V c main_v4_0) (funext fun a => Fin.ext ?_)
  match a with
  | ⟨0, _⟩ => show win1_0.index t (0 : Fin 2) * 2048 + 1 * (y 0).val = (i 0).val; rw [e0, h0]; omega
  | ⟨1, _⟩ => show win1_0.index t (1 : Fin 2) * 256 + 1 * (y 1).val = (i 1).val; rw [e1, h1]; omega

/-- The column totals' block at any point is the whole row. -/
theorem f_block_eq (c : Dev nD) (t : Fin cfg1.N) :
    (iblk1 V c 1 t : Vec Ideal S1x256 .f32) = (V c main_v7 : S1x256.Idx → EReal) := by
  obtain ⟨-, -, e0, e1, -⟩ := block_indices t
  funext y
  show V c main_v7 (((cfg1.win 1).blk t).view.emb y) = V c main_v7 y
  refine congrArg (V c main_v7) (funext fun a => Fin.ext ?_)
  match a with
  | ⟨0, _⟩ => show win1_1.index t (0 : Fin 2) * 1 + 1 * (y 0).val = (y 0).val; rw [e0]; omega
  | ⟨1, _⟩ => show win1_1.index t (1 : Fin 2) * 256 + 1 * (y 1).val = (y 1).val; rw [e1]; omega

/-- The body's value at an index of point `t`'s block is the target distribution at the array index under it. -/
theorem pay_block (c : Dev nD) (t : Fin cfg1.N) (y : S2048x256.Idx) (i : S65536x256.Idx)
    (h0 : (i 0).val = 2048 * t.val + (y 0).val) (h1 : (i 1).val = (y 1).val) :
    k1_pay1 (F := Ideal) (iblk1 V c 0 t) (iblk1 V c 1 t) y
      = Cert.Assign.pOf (V c main_v4_0) (V c main_v7) i := by
  obtain ⟨r, j, rfl⟩ : ∃ (r : Fin 2048) (j : Fin 256), y = ix2 r j := ⟨y 0, y 1, eq_ix2 y⟩
  obtain ⟨p, q, rfl⟩ : ∃ (p : Fin 65536) (q : Fin 256), i = ix2 p q := ⟨i 0, i 1, eq_ix2 i⟩
  obtain rfl : q = j := Fin.ext h1
  refine (pay_p (iblk1 V c 0 t) (iblk1 V c 1 t) r q).trans ?_
  rw [Cert.Assign.pOf_ix2, f_block_eq V c t]
  refine congrArg (fun qr => Cert.Assign.pRow qr (V c main_v7) q) (funext fun j' => ?_)
  exact q_block_apply V c t (ix2 r j') (ix2 p j') h0 rfl

/-- What point `t` writes back is its block of the target distribution of the two arrays. -/
theorem flushed_eq (c : Dev nD) (t : Fin cfg1.N) :
    (dat1 V c).flushed 2 t
      = ((cfg1.win 2).blk t).view.read (Elt Ideal) (Cert.Assign.pOf (V c main_v4_0) (V c main_v7)) := by
  show (cfg1.win 2).cut (grid1.coords t) ((dat1 V c).after 2 t) = _
  rw [after1_2]
  unfold out1_2
  rw [View.canon_unit_zero zero_offsets]
  simp only [View.ld_unit_zero (S := S2048x256) zero_offsets, View.ld_unit_zero (S := S1x256) zero_offsets]
  obtain ⟨-, -, -, -, e0, e1⟩ := block_indices t
  funext y
  show k1_pay1 (F := Ideal) (iblk1 V c 0 t) (iblk1 V c 1 t) y
    = Cert.Assign.pOf (V c main_v4_0) (V c main_v7) (((cfg1.win 2).blk t).view.emb y)
  refine pay_block V c t y _ ?_ ?_
  · show win1_2.index t (0 : Fin 2) * 2048 + 1 * (y 0).val = 2048 * t.val + (y 0).val; rw [e0]; omega
  · show win1_2.index t (1 : Fin 2) * 256 + 1 * (y 1).val = (y 1).val; rw [e1]; omega

/-- An index of the array is in point `t`'s block iff each coordinate is in the block's range on its axis. -/
theorem mem_block (t : Fin cfg1.N) (i : S65536x256.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_v8).slice (win1_2.rect t)).set ↔ _
  rw [View.set_slice_whole, Rect.mem_set_unit]
  exact Iff.rfl

/-- Row `i` of the array lies in the block of point `i / 2048`. -/
theorem covered (i : S65536x256.Idx) :
    ∃ t : Fin cfg1.N, (cfg1.win 2).flush t = true ∧ i ∈ ((cfg1.win 2).blk t).view.set := by
  have hN : grid1.N = 32 := N_1
  have hi0 : (i 0).val < 65536 := (i 0).isLt
  have hi1 : (i 1).val < 256 := (i 1).isLt
  refine ⟨⟨(i 0).val / 2048, by show (i 0).val / 2048 < grid1.N; omega⟩, flush1_2 _, ?_⟩
  rw [mem_block]
  obtain ⟨-, -, -, -, e0, e1⟩ := block_indices ⟨(i 0).val / 2048, by show (i 0).val / 2048 < grid1.N; omega⟩
  intro a
  match a with
  | ⟨0, _⟩ =>
    show win1_2.index _ (0 : Fin 2) * 2048 ≤ (i 0).val ∧ (i 0).val < win1_2.index _ (0 : Fin 2) * 2048 + 2048
    rw [e0]; show (i 0).val / 2048 * 2048 ≤ (i 0).val ∧ (i 0).val < (i 0).val / 2048 * 2048 + 2048; omega
  | ⟨1, _⟩ =>
    show win1_2.index _ (1 : Fin 2) * 256 ≤ (i 1).val ∧ (i 1).val < win1_2.index _ (1 : Fin 2) * 256 + 256
    rw [e1]; omega

/-- The result array after all 32 points: the target distribution of the assignments and the column totals as the
    region found them. -/
theorem arr_p (c : Dev nD) :
    (dat1 (F := Ideal) V c).arrAt 2 cfg1.N = Cert.Assign.pOf (V c main_v4_0) (V c main_v7) :=
  (dat1 V c).arrAt_eq_of_cover 2 (Cert.Assign.pOf (V c main_v4_0) (V c main_v7)) (fun t _ => flushed_eq V c t) covered

end Array

end Cert.KernelIdeal.PValue

end
-- ==== Proof.HostStretch.lean ====
/-
  The two stretches of host operations of the kernel's program, read as functions of the buffer contents they start
  from (an arbitrary valuation `W`).

  Before the first region: the centroids are squared, summed along each row from zero, and the 256 sums are laid out
  as one row — the centroids' squared norms. Between the regions: the 32 × 1 × 256 partial column totals are laid out
  as 32 × 256, summed down each column from zero, and laid out as one row. The initial zeros vanish (`0 + x = x`),
  and a reshape keeps the row-major position, so `[256,1] → [1,256]` and `[32,1,256] → [32,256]` move no entry.
  Neither stretch writes the data, the centroids or the assignments.
-/
import proofs.«102567_j76046690943287_2_alg».proof.Proof.Gen.KernelIdeal.Launch
import proofs.«102567_j76046690943287_2_alg».proof.Proof.Spec
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.HostValue

open Cert.KernelIdeal Cert.KernelIdeal.Gen Idealize.ShloMosaic Idealize.ShloMosaic.TcCoe Idealize.ShloMosaic.ValueIdx
open Idealize.ShloMosaic.StableHlo Cert.Assign

/-- A host sum over the 1024 columns of a 256-row array, from zero, at row `j`. -/
theorem rowsum_apply (x : S256x1024.Idx → EReal) (j : Fin 256) :
    Host.reduceAdd (F := Ideal) (φ := .f32) x (constant (F := Ideal) S_ .f32 0x00000000#32) reducesTo_S256x1024_S256_d1 h_S_ (ix1 j)
      = ∑ k : Fin 1024, x (ix2 j k) := by
  simp only [Host.reduceAdd, Ideal.hostReduceAdd_def]
  rw [Ideal.hostReduceAdd_single reducesTo_S256x1024_S256_d1 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- A host sum over the 32 rows of a 32-row array, from zero, at column `j`. -/
theorem colsum_apply (x : S32x256.Idx → EReal) (j : Fin 256) :
    Host.reduceAdd (F := Ideal) (φ := .f32) x (constant (F := Ideal) S_ .f32 0x00000000#32) reducesTo_S32x256_S256_d0 h_S_ (ix1 j)
      = ∑ b : Fin 32, x (ix2 b j) := by
  simp only [Host.reduceAdd, Ideal.hostReduceAdd_def]
  rw [Ideal.hostReduceAdd_single reducesTo_S32x256_S256_d0 (by decide)]
  show Ideal.ofBits .f32 0x00000000#32 + _ = _
  rw [Ideal.ofBits_zero_f32, zero_add]
  refine Finset.sum_congr rfl fun k _ => ?_
  exact congrArg x (funext fun a => Fin.ext (by match a with | ⟨0, _⟩ => rfl | ⟨1, _⟩ => rfl))

/-- The host operations before the first region leave the centroids' squared norms, as a row. -/
theorem host0_v3 (W : Valuation τ sig (Elt Ideal)) :
    (StableHlo.after (hostOps0 (F := Ideal)) W (Proc.devRef .tc main_v3) : S1x256.Idx → EReal)
      = c2Of (W (Proc.devRef .tc main_arg1)) := by
  have e : (StableHlo.after (hostOps0 (F := Ideal)) W (Proc.devRef .tc main_v3) : S1x256.Idx → EReal)
      = shapeCast S1x256 (broadcastInDim S256x1 ![0] bcast_S256_S256x1_0
          (Host.reduceAdd (F := Ideal) (φ := .f32) (mulf (W (Proc.devRef .tc main_arg1)) (W (Proc.devRef .tc main_arg1)))
            (constant (F := Ideal) S_ .f32 0x00000000#32) reducesTo_S256x1024_S256_d1 h_S_)) shapeCasts_S256x1_S1x256 := by
    after_results; rfl
  rw [e]
  generalize (W (Proc.devRef .tc main_arg1) : S256x1024.Idx → EReal) = cen
  funext y
  obtain ⟨a, j, rfl⟩ : ∃ (a : Fin 1) (j : Fin 256), y = ix2 a j := ⟨y 0, y 1, eq_ix2 y⟩
  rw [c2Of_ix2]
  rw [shapeCast_apply _ shapeCasts_S256x1_S1x256 (ix2 a j) (ix2 j (0 : Fin 1)) (by
    rw [Shape.rowMajor_val_two, Shape.rowMajor_val_two]
    show j.val * 1 + 0 = a.val * 256 + j.val
    have := a.isLt; omega)]
  rw [broadcastInDim_apply _ bcast_S256_S256x1_0 _ (ix2 j (0 : Fin 1)) (ix1 j) (fun a => match a with
    | ⟨0, _⟩ => by show j.val = if (256 : Nat) = 1 then 0 else j.val; rw [if_neg (by decide)])]
  rw [rowsum_apply]
  rfl

/-- The host operations between the two regions leave the sum of the 32 partial column totals, as a row. -/
theorem host1_v7 (W : Valuation τ sig (Elt Ideal)) :
    (StableHlo.after (hostOps1 (F := Ideal)) W (Proc.devRef .tc main_v7) : S1x256.Idx → EReal)
      = fOf (W (Proc.devRef .tc main_v4_1)) := by
  have e : (StableHlo.after (hostOps1 (F := Ideal)) W (Proc.devRef .tc main_v7) : S1x256.Idx → EReal)
      = broadcastInDim S1x256 ![1] bcast_S256_S1x256_1
          (Host.reduceAdd (F := Ideal) (φ := .f32) (shapeCast S32x256 (W (Proc.devRef .tc main_v4_1)) shapeCasts_S32x1x256_S32x256)
            (constant (F := Ideal) S_ .f32 0x00000000#32) reducesTo_S32x256_S256_d0 h_S_) := by
    after_results; rfl
  rw [e]
  generalize (W (Proc.devRef .tc main_v4_1) : S32x1x256.Idx → EReal) = part
  funext y
  obtain ⟨a, j, rfl⟩ : ∃ (a : Fin 1) (j : Fin 256), y = ix2 a j := ⟨y 0, y 1, eq_ix2 y⟩
  rw [fOf_ix2]
  rw [broadcastInDim_apply _ bcast_S256_S1x256_1 _ (ix2 a j) (ix1 j) (fun a => match a with
    | ⟨0, _⟩ => by show j.val = if (256 : Nat) = 1 then 0 else j.val; rw [if_neg (by decide)])]
  rw [colsum_apply]
  refine Finset.sum_congr rfl fun b _ => ?_
  exact shapeCast_apply _ shapeCasts_S32x1x256_S32x256 (ix2 b j) (ix3 b (0 : Fin 1) j) (by
    rw [Shape.rowMajor_val_two, Shape.rowMajor_val_three]
    show (b.val * 1 + 0) * 256 + j.val = b.val * 256 + j.val
    omega)

/-- Neither stretch of host operations writes the data, the centroids or the assignments. -/
theorem host0_arg0 (W : Valuation τ sig (Elt Ideal)) :
    StableHlo.after (hostOps0 (F := Ideal)) W (Proc.devRef .tc main_arg0) = W (Proc.devRef .tc main_arg0) := by
  after_results
theorem host0_arg1 (W : Valuation τ sig (Elt Ideal)) :
    StableHlo.after (hostOps0 (F := Ideal)) W (Proc.devRef .tc main_arg1) = W (Proc.devRef .tc main_arg1) := by
  after_results
theorem host1_v4_0 (W : Valuation τ sig (Elt Ideal)) :
    StableHlo.after (hostOps1 (F := Ideal)) W (Proc.devRef .tc main_v4_0) = W (Proc.devRef .tc main_v4_0) := by
  after_results

end Cert.KernelIdeal.HostValue
end
-- ==== Proof.KernelRun.lean ====
/-
  What the kernel's program leaves in its two result arrays, as functions of the launch contents of the data `z` and
  the centroids `c` — read off the run of its segments, boundary by boundary:

    before the first region   the host operations leave the centroids' squared norms `c2 = c2Of c`; `z`, `c` untouched;
    after the first region    the assignments hold `Q = qOf z c c2`, the partial totals `partOf Q`;
    before the second region  the host operations leave the row `fOf (partOf Q)`, which is the column totals
                              `colSum Q` (a sum over 65536 rows taken in 32 groups of 2048); `Q` untouched;
    after the second region   the result holds `pOf Q (colSum Q)`, and `Q`, an input of that region, is as it was.
-/
import proofs.«102567_j76046690943287_2_alg».proof.Proof.Gen.KernelIdeal.Frame
import proofs.«102567_j76046690943287_2_alg».proof.Proof.RunResults
import proofs.«102567_j76046690943287_2_alg».proof.Proof.RegionQ
import proofs.«102567_j76046690943287_2_alg».proof.Proof.RegionP
import proofs.«102567_j76046690943287_2_alg».proof.Proof.HostStretch
import proofs.«102567_j76046690943287_2_alg».proof.Proof.Spec

set_option maxRecDepth 16384

noncomputable section

namespace Cert.KernelIdeal.KValue

open Cert.KernelIdeal Cert.KernelIdeal.Gen Idealize.ShloMosaic Idealize.ShloMosaic.TcCoe Idealize.SL.Sem Cert.Assign

variable (m : (ℓ : Loc nD τ sig) → Buf (Elt Ideal) ℓ) (ρ : Dev nD → PrngReg)

/-- The soft assignments of the launch data against the launch centroids, -/
abbrev Qm (c : Dev nD) : SQ.Idx → EReal :=
  qOf (m ((c : Thread nD τ).loc main_arg0)) (m ((c : Thread nD τ).loc main_arg1)) (c2Of (m ((c : Thread nD τ).loc main_arg1)))
/-- and their target distribution. -/
abbrev Pm (c : Dev nD) : SQ.Idx → EReal := pOf (Qm m c) (colSum (Qm m c))

/-! ## Entering the first region -/

theorem V1_arg0 (c : Dev nD) : V1 (F := Ideal) m ρ c main_arg0 = m ((c : Thread nD τ).loc main_arg0) :=
  HostValue.host0_arg0 (W0 m ρ c)
theorem V1_arg1 (c : Dev nD) : V1 (F := Ideal) m ρ c main_arg1 = m ((c : Thread nD τ).loc main_arg1) :=
  HostValue.host0_arg1 (W0 m ρ c)
theorem V1_v3 (c : Dev nD) : (V1 (F := Ideal) m ρ c main_v3 : SF.Idx → EReal) = c2Of (m ((c : Thread nD τ).loc main_arg1)) :=
  HostValue.host0_v3 (W0 m ρ c)

/-! ## Leaving the first region -/

theorem W2_q (c : Dev nD) : (W2 (F := Ideal) m ρ c (Proc.devRef .tc main_v4_0) : SQ.Idx → EReal) = Qm m c := by
  refine (W2_arr m ρ c 3).trans ((QArr.arr_q (V1 m ρ) c).trans ?_)
  rw [V1_arg0 m ρ c, V1_arg1 m ρ c, V1_v3 m ρ c]

theorem W2_part (c : Dev nD) : (W2 (F := Ideal) m ρ c (Proc.devRef .tc main_v4_1) : SPart.Idx → EReal) = partOf (Qm m c) := by
  refine (W2_arr m ρ c 4).trans ((QArr.arr_part (V1 m ρ) c).trans ?_)
  rw [V1_arg0 m ρ c, V1_arg1 m ρ c, V1_v3 m ρ c]

/-! ## Entering the second region -/

theorem V3_q (c : Dev nD) : (V3 (F := Ideal) m ρ c main_v4_0 : SQ.Idx → EReal) = Qm m c :=
  (HostValue.host1_v4_0 (W2 m ρ c)).trans (W2_q m ρ c)

theorem V3_f (c : Dev nD) : (V3 (F := Ideal) m ρ c main_v7 : SF.Idx → EReal) = colSum (Qm m c) := by
  refine (HostValue.host1_v7 (W2 m ρ c)).trans ?_
  rw [W2_part m ρ c]
  exact fOf_partOf _

/-! ## Leaving the second region -/

theorem W4_p (c : Dev nD) : (W4 (F := Ideal) m ρ c (Proc.devRef .tc main_v8) : SQ.Idx → EReal) = Pm m c := by
  refine (W4_arr m ρ c 2).trans ((PValue.arr_p (V3 m ρ) c).trans ?_)
  rw [V3_q m ρ c, V3_f m ρ c]

theorem W4_q (c : Dev nD) : (W4 (F := Ideal) m ρ c (Proc.devRef .tc main_v4_0) : SQ.Idx → EReal) = Qm m c :=
  ((W4_arr m ρ c 0).trans (((dat1 (V3 m ρ) c).arrAt_in 0 rfl _).trans (A_eq1 (V3 m ρ) c 0))).trans (V3_q m ρ c)

/-! ## The run -/

/-- Every weakly fair execution of the kernel's program terminates, nothing faulting, with the assignments at `Qm`,
    the result at `Pm`, and the data and the centroids as launched. -/
theorem run : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v4_0) = Qm m c
      ∧ r.2.mem ((c.tc : Thread nD τ).loc main_v8) = Pm m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).2.2.1, (h c).1.trans (W4_q m ρ c), (h c).2.1.trans (W4_p m ρ c),
      (h c).2.2.1, (h c).2.2.2⟩)
    (GenP.run_results m ρ)

end Cert.KernelIdeal.KValue

end
-- ==== Proof.RefSide.lean ====
/-
  The reference program against the specification, over the extended reals.

  Read one operation at a time, the reference's soft assignment at row `i`, centroid `j` is the weight
  `(1 + √(max (‖z i‖² + ‖c j‖² − 2 ⟨z i, c j⟩) ε) / 1) ^ (−1)` over the row's total weight, each sum started from a
  zero. Three facts bring it to the specification's form: the starting zero adds nothing; dividing by one changes
  nothing; and for `y = 1 + √(max d ε)`, which is `⊤` or a real at least one, the power `y ^ (−1)` is the quotient
  `1 / y` (`pow_neg_one`; no finiteness hypothesis). The target distribution is then read the same way from the
  soft assignments and their column totals.
-/
import proofs.«102567_j76046690943287_2_alg».proof.Proof.Gen.ReferenceIdeal.Read
import proofs.«102567_j76046690943287_2_alg».proof.Proof.Spec
import Idealize.ShloMosaic.PureOps.Ideal.Laws
import Idealize.ShloMosaic.Lib.ValueIdx

noncomputable section

namespace Cert.ReferenceIdeal.RefValue

open Cert.ReferenceIdeal Cert.ReferenceIdeal.Read Idealize.ShloMosaic Idealize.ShloMosaic.ValueIdx

/-- The pattern `0x3F800000` reads as the real one. -/
theorem one_f32 : Ideal.ofBits .f32 0x3F800000#32 = 1 := by
  simp [Ideal.ofBits, Ideal.ieee, -EReal.coe_mul]; norm_num

/-- The pattern `0xBF800000` reads as the real minus one. -/
theorem neg_one_f32 : Ideal.ofBits .f32 0xBF800000#32 = ((-1 : ℝ) : EReal) := by
  simp [Ideal.ofBits, Ideal.ieee, -EReal.coe_mul]; norm_num

/-- The clamp constant is a nonnegative real. -/
theorem eps_nonneg : (0 : EReal) ≤ Ideal.ofBits .f32 0x2B8CBCCC#32 := by
  simp [Ideal.ofBits, Ideal.ieee, -EReal.coe_mul]

/-- Dividing by one changes nothing, at the infinities too. -/
theorem div_one (x : EReal) : Ideal.div x (Ideal.ofBits .f32 0x3F800000#32) = x := by
  rw [one_f32, Ideal.div, if_neg one_ne_zero, ← EReal.coe_one, ← EReal.coe_inv, inv_one, EReal.coe_one, mul_one]

/-- For `y = 1 + √(max d ε)`, which is `⊤` or a real at least one, the power `y ^ (-1)` is the quotient `1 / y`:
    at `⊤` both are zero, at a positive real `r` both are `r⁻¹`. -/
theorem pow_neg_one (d : EReal) :
    Ideal.pow (Ideal.ofBits .f32 0x3F800000#32 + Ideal.sqrt (max d (Ideal.ofBits .f32 0x2B8CBCCC#32)))
        (Ideal.ofBits .f32 0xBF800000#32)
      = Ideal.div (Ideal.ofBits .f32 0x3F800000#32)
          (Ideal.ofBits .f32 0x3F800000#32 + Ideal.sqrt (max d (Ideal.ofBits .f32 0x2B8CBCCC#32))) := by
  have hm : (0 : EReal) ≤ max d (Ideal.ofBits .f32 0x2B8CBCCC#32) := le_max_of_le_right eps_nonneg
  generalize max d (Ideal.ofBits .f32 0x2B8CBCCC#32) = m at hm
  rw [one_f32, neg_one_f32]
  induction m using EReal.rec with
  | bot => exact absurd hm (by simp)
  | top =>
    rw [Ideal.sqrt_top, EReal.add_top_of_ne_bot (show (1 : EReal) ≠ ⊥ from EReal.coe_ne_bot 1), Ideal.pow_top, Ideal.div]
    simp
  | coe r =>
    have hr : 0 ≤ r := by exact_mod_cast hm
    have hpos : (0 : ℝ) < 1 + Real.sqrt r := by positivity
    have hne : ((1 + Real.sqrt r : ℝ) : EReal) ≠ 0 := by exact_mod_cast hpos.ne'
    rw [Ideal.sqrt_coe, if_neg (not_lt.mpr hr), ← EReal.coe_one, ← EReal.coe_add, Ideal.pow_coe_coe,
      Ideal.div, if_neg hne, EReal.coe_one, one_mul, ← EReal.coe_inv]
    exact congrArg _ (Real.rpow_neg_one _)

/-! The reference's composed index functions, at an index given by its coordinates. -/

theorem idx_z2 (i : Fin 65536) (j : Fin 256) (k : Fin 1024) :
    idx_main_v1 (idx_main_v2 (idx_main_v6 (ix2 i j))) k = ix2 i k :=
  funext fun a => Fin.ext (by match a with | ⟨0, _⟩ => rfl | ⟨1, _⟩ => rfl)

theorem idx_c2 (i : Fin 65536) (j : Fin 256) (k : Fin 1024) :
    idx_main_v4 (idx_main_v5 (idx_main_v7 (ix2 i j))) k = ix2 j k :=
  funext fun a => Fin.ext (by match a with | ⟨0, _⟩ => rfl | ⟨1, _⟩ => rfl)

theorem idx_dl (i : Fin 65536) (j : Fin 256) (k : Fin 1024) :
    lidx_main_v10 (ix2 i j) k = ix2 i k :=
  funext fun a => Fin.ext (by match a with | ⟨0, _⟩ => rfl | ⟨1, _⟩ => rfl)

theorem idx_dr (i : Fin 65536) (j : Fin 256) (k : Fin 1024) :
    idx_main_v9 (ridx_main_v10 (ix2 i j) k) = ix2 j k :=
  funext fun a => Fin.ext (by match a with | ⟨0, _⟩ => rfl | ⟨1, _⟩ => rfl)

theorem idx_row (i : Fin 65536) (j : Fin 256) (k : Fin 256) :
    idx_main_v23 (idx_main_v24 (idx_main_v25 (ix2 i j))) k = ix2 i k :=
  funext fun a => Fin.ext (by match a with | ⟨0, _⟩ => rfl | ⟨1, _⟩ => rfl)

/-- The reference's weight at row `i`, centroid `j` is the specification's. -/
theorem ref_num (x0 : FVec Ideal S65536x1024 .f32) (x1 : FVec Ideal S256x1024 .f32) (i : Fin 65536) (j : Fin 256) :
    val_main_v22 (F := Ideal) x0 x1 (ix2 i j)
      = Cert.Assign.numRow (fun k => x0 (ix2 i k)) x1 (Cert.Assign.c2Of x1) j := by
  rw [val_main_v22_apply, val_main_v21_apply, val_main_cst_5_apply, val_main_v20_apply, val_main_v19_apply,
    val_main_cst_4_apply, val_main_v18_apply, val_main_v17_apply, val_main_cst_3_apply, val_main_v16_apply,
    val_main_v15_apply, val_main_v14_apply, val_main_cst_2_apply, val_main_v13_apply, val_main_v12_apply,
    val_main_v11_apply, val_main_cst_1_apply, val_main_v10_apply, val_main_v8_apply, val_main_v7_apply,
    val_main_v5_apply, val_main_v4_apply, val_main_cst_0_apply, val_main_v6_apply, val_main_v2_apply,
    val_main_v1_apply, val_main_cst_apply]
  simp only [val_main_v9_apply, val_main_v3_apply, val_main_v0_apply, idx_z2, idx_c2, idx_dl, idx_dr,
    Ideal.ofBits_def, Ideal.addf_def, Ideal.subf_def, Ideal.mulf_def, Ideal.hostDivf_def, Ideal.maximumf_def,
    Ideal.hostUnary_sqrt_def, Ideal.hostPowf_def, Ideal.ofBits_zero_f32, zero_add, div_one, pow_neg_one]
  unfold Cert.Assign.numRow
  simp only [Cert.Assign.c2Of_ix2]

/-- The reference's soft assignments are the specification's, with the centroids' squared norms the specification's. -/
theorem ref_q (x0 : FVec Ideal S65536x1024 .f32) (x1 : FVec Ideal S256x1024 .f32) :
    val_main_v26 (F := Ideal) x0 x1 = Cert.Assign.qOf x0 x1 (Cert.Assign.c2Of x1) := by
  funext y
  obtain ⟨i, j, rfl⟩ : ∃ (i : Fin 65536) (j : Fin 256), y = ix2 i j := ⟨y 0, y 1, eq_ix2 y⟩
  rw [Cert.Assign.qOf_ix2, val_main_v26_apply, val_main_v25_apply, val_main_v24_apply, val_main_v23_apply,
    val_main_cst_6_apply]
  simp only [idx_row, ref_num, Ideal.ofBits_def, Ideal.hostDivf_def, Ideal.ofBits_zero_f32, zero_add]
  rfl

theorem idx_col (i : Fin 65536) (j : Fin 256) (k : Fin 65536) :
    idx_main_v27 (idx_main_v29 (idx_main_v30 (ix2 i j))) k = ix2 k j :=
  funext fun a => Fin.ext (by match a with | ⟨0, _⟩ => rfl | ⟨1, _⟩ => rfl)

theorem idx_prow (i : Fin 65536) (j : Fin 256) (k : Fin 256) :
    idx_main_v32 (idx_main_v33 (idx_main_v34 (ix2 i j))) k = ix2 i k :=
  funext fun a => Fin.ext (by match a with | ⟨0, _⟩ => rfl | ⟨1, _⟩ => rfl)

/-- The reference's unnormalized target at row `i`, centroid `j`: the squared soft assignment over the column total. -/
theorem ref_pnum (x0 : FVec Ideal S65536x1024 .f32) (x1 : FVec Ideal S256x1024 .f32) (i : Fin 65536) (j : Fin 256) :
    val_main_v31 (F := Ideal) x0 x1 (ix2 i j)
      = Ideal.div (val_main_v26 (F := Ideal) x0 x1 (ix2 i j) * val_main_v26 (F := Ideal) x0 x1 (ix2 i j))
          (Cert.Assign.colSum (val_main_v26 (F := Ideal) x0 x1) (ix2 (0 : Fin 1) j)) := by
  rw [val_main_v31_apply, val_main_v30_apply, val_main_v29_apply, val_main_v27_apply, val_main_cst_7_apply,
    val_main_v28_apply, Cert.Assign.colSum_ix2]
  simp only [idx_col, Ideal.ofBits_def, Ideal.hostDivf_def, Ideal.mulf_def, Ideal.ofBits_zero_f32, zero_add]

/-- The reference's target distribution is the specification's, of its own soft assignments and their column totals. -/
theorem ref_p (x0 : FVec Ideal S65536x1024 .f32) (x1 : FVec Ideal S256x1024 .f32) :
    val_main_v35 (F := Ideal) x0 x1
      = Cert.Assign.pOf (val_main_v26 (F := Ideal) x0 x1) (Cert.Assign.colSum (val_main_v26 (F := Ideal) x0 x1)) := by
  funext y
  obtain ⟨i, j, rfl⟩ : ∃ (i : Fin 65536) (j : Fin 256), y = ix2 i j := ⟨y 0, y 1, eq_ix2 y⟩
  rw [Cert.Assign.pOf_ix2, val_main_v35_apply, val_main_v34_apply, val_main_v33_apply, val_main_v32_apply,
    val_main_cst_8_apply]
  simp only [idx_prow, ref_pnum, Ideal.ofBits_def, Ideal.hostDivf_def, Ideal.ofBits_zero_f32, zero_add]
  rfl

end Cert.ReferenceIdeal.RefValue

end
-- ==== Proof.lean ====
/-
  The kernel computes, for 65536 data rows `z i` and 256 centroids `c j` in dimension 1024, the soft cluster
  assignment `Q i j = w i j / Σ_j' w i j'` with the Student-t weight `w i j = 1 / (1 + √(max (‖z i‖² + ‖c j‖² − 2 ⟨z i, c j⟩) ε))`,
  and the target distribution `P i j = (Q i j² / F j) / Σ_j' (Q i j'² / F j')` with the column totals `F j = Σ_i Q i j`;
  it returns the data unchanged, `Q` and `P`. The reference computes the same three arrays with jnp.

  At the extended reals every rounding and every change of float format is the identity, a matrix product and a sum
  are plain sums, and the two programs differ in exactly two places:
    - the weight: the reference writes it as the POWER `(1 + D / 1) ^ (-1)`, the kernel as the QUOTIENT `1 / (1 + D)`.
      Division by `1` is the identity on every extended real, and since `ε > 0` the base `1 + D` is `+∞` or a real `≥ 1`,
      where the power `-1` is the reciprocal (`(+∞) ^ (-1) = 0 = 1 · (+∞)⁻¹`; `r ^ (-1) = r⁻¹`);
    - the column totals: the reference sums the 65536 rows at once, the kernel sums 32 groups of 2048 rows inside its
      first pass and adds the 32 partial sums on the host. Addition on the extended reals is commutative and
      associative, so the two agree.
  Neither needs the inputs to be finite, so the precondition is never opened.

  Proof/Spec.lean states the three arrays once; Proof/RefSide.lean reads the reference's run as them; Proof/PayQ.lean
  and Proof/RegionP.lean read the two kernel bodies at an index, Proof/RegionQ.lean and Proof/RegionP.lean turn each
  region's 32 written-back blocks into one whole array, Proof/HostStretch.lean reads the host operations around the
  regions, and Proof/KernelRun.lean follows the kernel's run from boundary to boundary. Here the five claims are assembled.
-/
import proofs.«102567_j76046690943287_2_alg».proof.Defs
import proofs.«102567_j76046690943287_2_alg».proof.Proof.Gen.Kernel
import proofs.«102567_j76046690943287_2_alg».proof.Proof.Gen.Kernel.Skeleton
import proofs.«102567_j76046690943287_2_alg».proof.Proof.Gen.Kernel.Launch
import proofs.«102567_j76046690943287_2_alg».proof.Proof.Gen.Kernel.Points
import proofs.«102567_j76046690943287_2_alg».proof.Proof.Gen.Kernel.Frame
import proofs.«102567_j76046690943287_2_alg».proof.Proof.Gen.KernelIdeal
import proofs.«102567_j76046690943287_2_alg».proof.Proof.Gen.KernelIdeal.Skeleton
import proofs.«102567_j76046690943287_2_alg».proof.Proof.Gen.KernelIdeal.Launch
import proofs.«102567_j76046690943287_2_alg».proof.Proof.Gen.KernelIdeal.Points
import proofs.«102567_j76046690943287_2_alg».proof.Proof.Gen.KernelIdeal.Frame
import proofs.«102567_j76046690943287_2_alg».proof.Proof.Gen.ReferenceIdeal
import proofs.«102567_j76046690943287_2_alg».proof.Proof.Gen.ReferenceIdeal.Run
import proofs.«102567_j76046690943287_2_alg».proof.Proof.Gen.ReferenceIdeal.Read
import proofs.«102567_j76046690943287_2_alg».proof.Proof.Gen.Pre_finite_inputs
import proofs.«102567_j76046690943287_2_alg».proof.Proof.KernelRun
import proofs.«102567_j76046690943287_2_alg».proof.Proof.RefSide
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the results dropped. -/
theorem frame_ri : Cert.frame_ReferenceIdeal := fun m ρ _ =>
  (θ_run Cert.ReferenceIdeal.defs _ _).mono (fun _ h c => ⟨(h c).1, (h c).2.2.2.2⟩)
    (Cert.ReferenceIdeal.Value.run (F := Ideal) m ρ)

/-- The idealization rewrote no operation. -/
theorem preserves : Cert.preserves_Kernel_KernelIdeal := trivial

/-- From memories agreeing on the data and the centroids both programs end with the data as launched, the soft
    assignments `Q` and the target distribution `P` of `Proof/Spec.lean`. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.KValue.Qm m c, fun c => Cert.KernelIdeal.KValue.Pm m c,
    Cert.KernelIdeal.KValue.run m ρ, ?_⟩
  refine (θ_run Cert.ReferenceIdeal.defs _ _).mono (fun _ h c => ⟨?_, ?_, ?_, (h c).2.2.2.1, (h c).2.2.2.2⟩)
    (Cert.ReferenceIdeal.Value.run (F := Ideal) m' ρ')
  · exact (h c).1.trans (hagree c).1
  · refine (h c).2.1.trans ?_
    rw [Cert.ReferenceIdeal.Read.val_main_v26_eq, Cert.ReferenceIdeal.RefValue.ref_q, (hagree c).1, (hagree c).2]
  · refine (h c).2.2.1.trans ?_
    rw [Cert.ReferenceIdeal.Read.val_main_v35_eq, Cert.ReferenceIdeal.RefValue.ref_p,
      Cert.ReferenceIdeal.RefValue.ref_q, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
